-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S32x1x512x512 : Shape := ⟨4, ![32, 1, 512, 512]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel

variable [Facts]

def fn {F : FTy → Type} [FloatOps F] (main_arg0 : FVec F S32x3x1024x1024 .f32) (main_arg1 : IVec S32x1x512x512 32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  main_v3
-- ==== Kernel.lean ====
abbrev S32x3x1024x1024 : Shape := ⟨4, ![32, 3, 1024, 1024]⟩
abbrev S32x1x512x512 : Shape := ⟨4, ![32, 1, 512, 512]⟩
abbrev S4x2x2 : Shape := ⟨3, ![4, 2, 2]⟩
abbrev S32x512x512 : Shape := ⟨3, ![32, 512, 512]⟩
abbrev S_ : Shape := ⟨0, ![]⟩
abbrev S32x512x512x1 : Shape := ⟨4, ![32, 512, 512, 1]⟩
abbrev S32x512x512x2x2 : Shape := ⟨5, ![32, 512, 512, 2, 2]⟩
abbrev S32x512x2x512x2 : Shape := ⟨5, ![32, 512, 2, 512, 2]⟩
abbrev S32x1x1024x1024 : Shape := ⟨4, ![32, 1, 1024, 1024]⟩
abbrev S1x1x256x1024 : Shape := ⟨4, ![1, 1, 256, 1024]⟩
abbrev S1x3x256x1024 : Shape := ⟨4, ![1, 3, 256, 1024]⟩
abbrev S256x1024 : Shape := ⟨2, ![256, 1024]⟩
abbrev S1x256x1024 : Shape := ⟨3, ![1, 256, 1024]⟩
abbrev S3x256x1024 : Shape := ⟨3, ![3, 256, 1024]⟩

abbrev nBuf : Space → Nat
  | .hbm => 25
  | .vmem => 8
  | .smem => 0
  | _ => 0

abbrev bufTy : (tb : Table) → Fin (tcTables nBuf tb) → BufTy
  | .hbm, ⟨0, _⟩ => ⟨S32x3x1024x1024, .f32⟩
  | .hbm, ⟨1, _⟩ => ⟨S32x1x512x512, .i32⟩
  | .hbm, ⟨2, _⟩ => ⟨S4x2x2, .i32⟩
  | .hbm, ⟨3, _⟩ => ⟨S32x512x512, .i32⟩
  | .hbm, ⟨4, _⟩ => ⟨S_, .i32⟩
  | .hbm, ⟨5, _⟩ => ⟨S32x512x512, .i32⟩
  | .hbm, ⟨6, _⟩ => ⟨S32x512x512, .i1⟩
  | .hbm, ⟨7, _⟩ => ⟨S_, .i32⟩
  | .hbm, ⟨8, _⟩ => ⟨S32x512x512, .i32⟩
  | .hbm, ⟨9, _⟩ => ⟨S32x512x512, .i32⟩
  | .hbm, ⟨10, _⟩ => ⟨S32x512x512, .i32⟩
  | .hbm, ⟨11, _⟩ => ⟨S32x512x512x1, .i32⟩
  | .hbm, ⟨12, _⟩ => ⟨S32x512x512x2x2, .i32⟩
  | .hbm, ⟨13, _⟩ => ⟨S32x512x2x512x2, .i32⟩
  | .hbm, ⟨14, _⟩ => ⟨S32x1x1024x1024, .i32⟩
  | .hbm, ⟨15, _⟩ => ⟨S_, .i32⟩
  | .hbm, ⟨16, _⟩ => ⟨S32x1x1024x1024, .i32⟩
  | .hbm, ⟨17, _⟩ => ⟨S32x1x1024x1024, .i1⟩
  | .hbm, ⟨18, _⟩ => ⟨S32x1x1024x1024, .f32⟩
  | .hbm, ⟨19, _⟩ => ⟨S_, .i32⟩
  | .hbm, ⟨20, _⟩ => ⟨S32x1x1024x1024, .i32⟩
  | .hbm, ⟨21, _⟩ => ⟨S32x1x1024x1024, .i1⟩
  | .hbm, ⟨22, _⟩ => ⟨S32x1x1024x1024, .f32⟩
  | .hbm, ⟨23, _⟩ => ⟨S32x3x1024x1024, .f32⟩
  | .hbm, ⟨24, _⟩ => ⟨S32x3x1024x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x3x256x1024, .f32⟩
  | .local _ .vmem, ⟨5, _⟩ => ⟨S1x3x256x1024, .f32⟩
  | .local _ .vmem, ⟨6, _⟩ => ⟨S1x3x256x1024, .f32⟩
  | .local _ .vmem, ⟨7, _⟩ => ⟨S1x3x256x1024, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x1x512x512_S32x512x512 : S32x1x512x512.ShapeCasts S32x512x512
  bcast_S_S32x512x512 : S_.BroadcastsInDim S32x512x512 (![] : Fin 0 → Fin S32x512x512.rank)
  bcast_S32x512x512_S32x512x512x1_0_1_2 : S32x512x512.BroadcastsInDim S32x512x512x1 (![0, 1, 2] : Fin 3 → Fin S32x512x512x1.rank)
  transposes_S32x512x512x2x2_S32x512x2x512x2_0_1_3_2_4 : S32x512x512x2x2.Transposes [0, 1, 3, 2, 4] S32x512x2x512x2
  shapeCasts_S32x512x2x512x2_S32x1x1024x1024 : S32x512x2x512x2.ShapeCasts S32x1x1024x1024
  bcast_S_S32x1x1024x1024 : S_.BroadcastsInDim S32x1x1024x1024 (![] : Fin 0 → Fin S32x1x1024x1024.rank)
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  shapeCasts_S256x1024_S1x256x1024 : S256x1024.ShapeCasts S1x256x1024
  shapeCasts_S1x256x1024_S1x256x1024 : S1x256x1024.ShapeCasts S1x256x1024
  broadcasts_S1x256x1024_S3x256x1024 : S1x256x1024.Broadcasts S3x256x1024
  inb_S1x3x256x1024_S1x3x256x1024_0_0_0_0 : ∀ a, (![0, 0, 0, 0] : Fin 4 → Nat) a + S1x3x256x1024.size a ≤ S1x3x256x1024.size a
  h_S1x3x256x1024 : 0 < S1x3x256x1024.numel
  shapeCasts_S1x3x256x1024_S3x256x1024 : S1x3x256x1024.ShapeCasts S3x256x1024
  shapeCasts_S3x256x1024_S1x3x256x1024 : S3x256x1024.ShapeCasts S1x3x256x1024
  gather_S4x2x2_S32x512x512x1_S32x512x512x2x2_34_0_n_n_0_3_122_wf : GatherDims.WF S4x2x2 S32x512x512x1 S32x512x512x2x2 [3, 4] [0] [] [0] [] 3 ![1, 2, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x1024.size a ≤ S32x1x1024x1024.size a
  hwx0_0 : ∀ i : grid0.Coords, EltTy.bits .f32 = 32 ∨ (Rect.block (s := S32x1x1024x1024) S1x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x1024.size a ≤ S32x1x1024x1024.size a
  hwx0_1 : ∀ i : grid0.Coords, EltTy.bits .f32 = 32 ∨ (Rect.block (s := S32x1x1024x1024) S1x1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x256x1024.size a ≤ S32x3x1024x1024.size a
  hwx0_2 : ∀ i : grid0.Coords, EltTy.bits .f32 = 32 ∨ (Rect.block (s := S32x3x1024x1024) S1x3x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256x1024.size a ≤ S32x3x1024x1024.size a
  hwx0_3 : ∀ i : grid0.Coords, EltTy.bits .f32 = 32 ∨ (Rect.block (s := S32x3x1024x1024) S1x3x256x1024.size (cc0_transform_3 i) (hinb0_3 i)).WholeWords (EltTy.packing .f32)

variable [Facts₀]

def gather_S4x2x2_S32x512x512x1_S32x512x512x2x2_34_0_n_n_0_3_122 : GatherDims S4x2x2 S32x512x512x1 S32x512x512x2x2 where
  offsetDims := [3, 4]
  collapsedSliceDims := [0]
  operandBatchingDims := []
  startIndicesBatchingDims := []
  startIndexMap := [0]
  indexVectorDim := 3
  sliceSizes := ![1, 2, 2]
  wf := gather_S4x2x2_S32x512x512x1_S32x512x512x2x2_34_0_n_n_0_3_122_wf

abbrev win0_0 : Pipeline.Window sig grid0 :=
  Pipeline.Window.ofSpec (Memref.whole main_v12) S1x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S1x3x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S1x3x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x1024x1024 : Shape := ⟨4, ![32, 3, 1024, 1024]⟩
abbrev S32x1x512x512 : Shape := ⟨4, ![32, 1, 512, 512]⟩
abbrev S4x2x2 : Shape := ⟨3, ![4, 2, 2]⟩
abbrev S32x512x512 : Shape := ⟨3, ![32, 512, 512]⟩
abbrev S_ : Shape := ⟨0, ![]⟩
abbrev S32x512x512x1 : Shape := ⟨4, ![32, 512, 512, 1]⟩
abbrev S32x512x512x2x2 : Shape := ⟨5, ![32, 512, 512, 2, 2]⟩
abbrev S32x512x2x512x2 : Shape := ⟨5, ![32, 512, 2, 512, 2]⟩
abbrev S32x1x1024x1024 : Shape := ⟨4, ![32, 1, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x3x1024x1024, .f32⟩
  | .hbm, ⟨1, _⟩ => ⟨S32x1x512x512, .i32⟩
  | .hbm, ⟨2, _⟩ => ⟨S4x2x2, .i32⟩
  | .hbm, ⟨3, _⟩ => ⟨S32x512x512, .i32⟩
  | .hbm, ⟨4, _⟩ => ⟨S_, .i32⟩
  | .hbm, ⟨5, _⟩ => ⟨S32x512x512, .i32⟩
  | .hbm, ⟨6, _⟩ => ⟨S32x512x512, .i1⟩
  | .hbm, ⟨7, _⟩ => ⟨S_, .i32⟩
  | .hbm, ⟨8, _⟩ => ⟨S32x512x512, .i32⟩
  | .hbm, ⟨9, _⟩ => ⟨S32x512x512, .i32⟩
  | .hbm, ⟨10, _⟩ => ⟨S32x512x512, .i32⟩
  | .hbm, ⟨11, _⟩ => ⟨S32x512x512x1, .i32⟩
  | .hbm, ⟨12, _⟩ => ⟨S32x512x512x2x2, .i32⟩
  | .hbm, ⟨13, _⟩ => ⟨S32x512x2x512x2, .i32⟩
  | .hbm, ⟨14, _⟩ => ⟨S32x1x1024x1024, .i32⟩
  | .hbm, ⟨15, _⟩ => ⟨S_, .i32⟩
  | .hbm, ⟨16, _⟩ => ⟨S32x1x1024x1024, .i32⟩
  | .hbm, ⟨17, _⟩ => ⟨S32x1x1024x1024, .i1⟩
  | .hbm, ⟨18, _⟩ => ⟨S32x1x1024x1024, .f32⟩
  | .hbm, ⟨19, _⟩ => ⟨S32x3x1024x1024, .f32⟩
  | .hbm, ⟨20, _⟩ => ⟨S_, .i32⟩
  | .hbm, ⟨21, _⟩ => ⟨S32x1x1024x1024, .i32⟩
  | .hbm, ⟨22, _⟩ => ⟨S32x1x1024x1024, .i1⟩
  | .hbm, ⟨23, _⟩ => ⟨S32x1x1024x1024, .f32⟩
  | .hbm, ⟨24, _⟩ => ⟨S32x3x1024x1024, .f32⟩
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S32x1x512x512_S32x512x512 : S32x1x512x512.ShapeCasts S32x512x512
  bcast_S_S32x512x512 : S_.BroadcastsInDim S32x512x512 (![] : Fin 0 → Fin S32x512x512.rank)
  bcast_S32x512x512_S32x512x512x1_0_1_2 : S32x512x512.BroadcastsInDim S32x512x512x1 (![0, 1, 2] : Fin 3 → Fin S32x512x512x1.rank)
  transposes_S32x512x512x2x2_S32x512x2x512x2_0_1_3_2_4 : S32x512x512x2x2.Transposes [0, 1, 3, 2, 4] S32x512x2x512x2
  shapeCasts_S32x512x2x512x2_S32x1x1024x1024 : S32x512x2x512x2.ShapeCasts S32x1x1024x1024
  bcast_S_S32x1x1024x1024 : S_.BroadcastsInDim S32x1x1024x1024 (![] : Fin 0 → Fin S32x1x1024x1024.rank)
  bcast_S32x1x1024x1024_S32x3x1024x1024_0_1_2_3 : S32x1x1024x1024.BroadcastsInDim S32x3x1024x1024 (![0, 1, 2, 3] : Fin 4 → Fin S32x3x1024x1024.rank)
  gather_S4x2x2_S32x512x512x1_S32x512x512x2x2_34_0_n_n_0_3_122_wf : GatherDims.WF S4x2x2 S32x512x512x1 S32x512x512x2x2 [3, 4] [0] [] [0] [] 3 ![1, 2, 2]

variable [Facts₀]

def gather_S4x2x2_S32x512x512x1_S32x512x512x2x2_34_0_n_n_0_3_122 : GatherDims S4x2x2 S32x512x512x1 S32x512x512x2x2 where
  offsetDims := [3, 4]
  collapsedSliceDims := [0]
  operandBatchingDims := []
  startIndicesBatchingDims := []
  startIndexMap := [0]
  indexVectorDim := 3
  sliceSizes := ![1, 2, 2]
  wf := gather_S4x2x2_S32x512x512x1_S32x512x512x2x2_34_0_n_n_0_3_122_wf

class Facts : Prop extends Facts₀ where

variable [Facts]
-- ==== Proof.Pattern.lean ====
/-
  Two programs are compared that both expand a half-resolution map of category codes into two full-resolution
  masks. A code `k` at cell `(b, r, s)` of the `32 × 512 × 512` code map selects one of four fixed `2 × 2`
  patterns with entries in `{0, 1, 2}`; the pattern is laid down at rows `2r, 2r + 1` and columns
  `2s, 2s + 1` of image `b` of a `32 × 1024 × 1024` picture, and mask number `n` (`n = 1` or `2`) is `1.0`
  where the picture holds `n` and `0.0` elsewhere. Both programs compute the picture by the SAME chain of
  integer operations (a negative code wrapped by adding 4, a table look-up, a swap of two axes, a merge of
  axes, a comparison, a conversion of the bit to a float), so that chain is named here once, as `pattern`, and
  is never opened: nothing about the two programs' agreement depends on what the chain computes, only on
  both applying it to the same codes. What differs is how the single-channel mask becomes three channels,
  and `spread` states that step index by index: channel `ch` of image `b` at `(r, s)` is the mask of image `b`
  at `(r, s)`, for every `ch`.
-/
import Idealize.ShloMosaic.PureOps
import Idealize.ShloMosaic.Lib.ValueIdx
import Idealize.ShloMosaic.Lib.Pipeline.Value

noncomputable section

namespace Cert.Masks

open Idealize.ShloMosaic Idealize.ShloMosaic.ValueIdx

/-! ## Shapes -/

/-- The code map as the programs receive it: 32 images, one channel, 512 × 512 cells. -/
abbrev Scodes : Shape := ⟨4, ![32, 1, 512, 512]⟩
/-- The code map without its channel axis. -/
abbrev Sflat : Shape := ⟨3, ![32, 512, 512]⟩
/-- The same with a trailing unit axis, the look-up's index vector. -/
abbrev Sflat1 : Shape := ⟨4, ![32, 512, 512, 1]⟩
/-- The four 2 × 2 patterns. -/
abbrev Stable : Shape := ⟨3, ![4, 2, 2]⟩
/-- One 2 × 2 pattern per cell. -/
abbrev Scells : Shape := ⟨5, ![32, 512, 512, 2, 2]⟩
/-- The same with the pattern's row next to the cell's row. -/
abbrev Srows : Shape := ⟨5, ![32, 512, 2, 512, 2]⟩
/-- A single-channel full-resolution picture or mask. -/
abbrev Smask : Shape := ⟨4, ![32, 1, 1024, 1024]⟩
/-- A three-channel full-resolution mask: a result. -/
abbrev Sout : Shape := ⟨4, ![32, 3, 1024, 1024]⟩
/-- A scalar. -/
abbrev S0 : Shape := ⟨0, ![]⟩

/-- The shape relations the chain's layout operations ask for. Each is a proposition about literal shapes, so
    any two witnesses of it are the same, and each program supplies its own. -/
structure Layout : Prop where
  drop : Scodes.ShapeCasts Sflat
  fill : S0.BroadcastsInDim Sflat (![] : Fin 0 → Fin Sflat.rank)
  unit : Sflat.BroadcastsInDim Sflat1 (![0, 1, 2] : Fin 3 → Fin Sflat1.rank)
  look : GatherDims.WF Stable Sflat1 Scells [3, 4] [0] [] [0] [] 3 ![1, 2, 2]
  swap : Scells.Transposes [0, 1, 3, 2, 4] Srows
  merge : Srows.ShapeCasts Smask
  fillMask : S0.BroadcastsInDim Smask (![] : Fin 0 → Fin Smask.rank)

/-- The relations hold: each is decided on the literal shapes. -/
theorem layout : Layout where
  drop := by decide
  fill := by decide
  unit := by decide
  look := by decide
  swap := by decide
  merge := by decide
  fillMask := by decide

/-- The four patterns' sixteen entries in row-major order: pattern `k`, row `u`, column `v` at `4k + 2u + v`. -/
def entries : Fin 16 → BitVec 32 := fun
  | 0 => 1#32 | 1 => 2#32 | 2 => 0#32 | 3 => 0#32 | 4 => 0#32 | 5 => 1#32 | 6 => 0#32 | 7 => 2#32
  | 8 => 0#32 | 9 => 0#32 | 10 => 2#32 | 11 => 1#32 | 12 => 2#32 | 13 => 0#32 | 14 => 1#32 | 15 => 0#32
  | _ => 0#32

/-- Any sixteen-entry list with these entries is `entries`: an equation of functions on `Fin 16`, checked entry by entry. -/
theorem eq_entries (f : Fin 16 → BitVec 32)
    (h : f 0 = 1#32 ∧ f 1 = 2#32 ∧ f 2 = 0#32 ∧ f 3 = 0#32 ∧ f 4 = 0#32 ∧ f 5 = 1#32 ∧ f 6 = 0#32 ∧ f 7 = 2#32
      ∧ f 8 = 0#32 ∧ f 9 = 0#32 ∧ f 10 = 2#32 ∧ f 11 = 1#32 ∧ f 12 = 2#32 ∧ f 13 = 0#32 ∧ f 14 = 1#32 ∧ f 15 = 0#32) :
    f = entries := by
  obtain ⟨h0, h1, h2, h3, h4, h5, h6, h7, h8, h9, h10, h11, h12, h13, h14, h15⟩ := h
  funext k
  fin_cases k
  · exact h0
  · exact h1
  · exact h2
  · exact h3
  · exact h4
  · exact h5
  · exact h6
  · exact h7
  · exact h8
  · exact h9
  · exact h10
  · exact h11
  · exact h12
  · exact h13
  · exact h14
  · exact h15

variable {F : FTy → Type} [FloatOps F]

/-- The pattern table as an array of shape `4 × 2 × 2`. -/
def table : (⟨Stable, .i32⟩ : BufTy).Contents (Elt F) := fun i => entries (Stable.rowMajor i)

/-- The look-up's dimension numbers: the code indexes the table's first axis, and the 2 × 2 slice it selects
    becomes the two trailing axes. -/
def lookDims (h : Layout) : GatherDims Stable Sflat1 Scells where
  offsetDims := [3, 4]
  collapsedSliceDims := [0]
  operandBatchingDims := []
  startIndicesBatchingDims := []
  startIndexMap := [0]
  indexVectorDim := 3
  sliceSizes := ![1, 2, 2]
  wf := h.look

/-- Mask number `n` of the code map `a` under the pattern table `tbl`: the chain both programs run. -/
def pattern (h : Layout) (tbl : (⟨Stable, .i32⟩ : BufTy).Contents (Elt F)) (n : BitVec 32)
    (a : (⟨Scodes, .i32⟩ : BufTy).Contents (Elt F)) : (⟨Smask, .f32⟩ : BufTy).Contents (Elt F) :=
  uitofp .f32
    (cmpi .eq
      (shapeCast Smask
        (transpose Srows [0, 1, 3, 2, 4]
          (Host.gather (lookDims h) tbl
            (broadcastInDim Sflat1 ![0, 1, 2] h.unit
              (select
                (cmpi .slt (shapeCast Sflat a h.drop) (broadcastInDim Sflat ![] h.fill (constantI S0 32 0#32)))
                (addi (shapeCast Sflat a h.drop) (broadcastInDim Sflat ![] h.fill (constantI S0 32 4#32)))
                (shapeCast Sflat a h.drop))))
          h.swap)
        h.merge)
      (broadcastInDim Smask ![] h.fillMask (constantI S0 32 n)))

/-! ## One channel to three -/

/-- The single-channel index under a three-channel index: the same image, row and column. -/
def under (i : Sout.Idx) : Smask.Idx :=
  ix4 (n0 := 32) (n1 := 1) (n2 := 1024) (n3 := 1024) (i 0) 0 (i 2) (i 3)

/-- A single-channel array copied into every one of three channels. -/
def spread {α : Type} (a : Smask.Idx → α) : Sout.Idx → α := fun i => a (under i)

/-- Broadcasting along the channel axis is that copy. -/
theorem broadcast_eq_spread {α : Type} (h : Smask.BroadcastsInDim Sout (![0, 1, 2, 3] : Fin 4 → Fin Sout.rank))
    (a : Smask.Idx → α) : broadcastInDim Sout ![0, 1, 2, 3] h a = spread a := by
  funext j
  refine broadcastInDim_apply _ h a j (under j) fun d => ?_
  match d with
  | ⟨0, _⟩ => show (j 0).val = if (32 : Nat) = 1 then 0 else (j 0).val; rw [if_neg (by decide)]
  | ⟨1, _⟩ => show 0 = if (1 : Nat) = 1 then 0 else (j 1).val; rw [if_pos rfl]
  | ⟨2, _⟩ => show (j 2).val = if (1024 : Nat) = 1 then 0 else (j 2).val; rw [if_neg (by decide)]
  | ⟨3, _⟩ => show (j 3).val = if (1024 : Nat) = 1 then 0 else (j 3).val; rw [if_neg (by decide)]

end Cert.Masks

end
-- ==== Proof.KernelValue.lean ====
/-
  The kernel's two results as whole arrays. The grid has one point per image `b` and per band of 256 rows;
  at a point the body loads the band of the first (second) single-channel mask and stores it, unchanged, into
  each of the three channels of the same band of the first (second) result. Read index by index: result
  `[b, ch, r, s]` is the mask at `[b, 0, r, s]`. The bands of all points tile the result, so after the run each
  result is the mask copied into three channels (`spread`), and the masks the region finds are the shared
  chain `pattern` of the code map, computed by the host operations before the region.
-/
import proofs.«169640_j695784702485_1_alg».proof.Proof.Gen.KernelIdeal.Value
import proofs.«169640_j695784702485_1_alg».proof.Proof.Pattern
import Idealize.ShloMosaic.Lib.Pipeline.Value
import Idealize.ShloMosaic.Lib.StableHlo.Run

noncomputable section

namespace Cert.KernelIdeal.Channels

open Cert.KernelIdeal Cert.KernelIdeal.Gen Cert.KernelIdeal.Value Cert.Masks
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## One block -/

theorem zeros4 : (![0, 0, 0, 0] : Fin 4 → Nat) = fun _ => 0 := funext fun a => by fin_cases a <;> rfl

/-- The first result's block after the body: the first input block at the same row and column, whatever the channel. -/
theorem block2 (x0 x1 : Vec F S1x1x256x1024 .f32) (y : S1x3x256x1024.Idx) : out0_2 x0 x1 y = x0 (ix2_0 y) := by
  unfold out0_2
  rw [canon2_eq]
  show View.ld x0 r0_0 (ix2_0 y) = _
  rw [View.ld_unit_zero zeros4]

/-- The second result's block after the body: the second input block at the same row and column. -/
theorem block3 (x0 x1 : Vec F S1x1x256x1024 .f32) (y : S1x3x256x1024.Idx) : out0_3 x0 x1 y = x1 (ix3_0 y) := by
  unfold out0_3
  rw [canon3_eq]
  show View.ld x1 r0_0 (ix3_0 y) = _
  rw [View.ld_unit_zero zeros4]

/-! ## Where the blocks sit -/

/-- At every grid point the four windows' blocks sit at the same image and the same band of rows; the channel
    and column block numbers are zero. Decided over the 128 points. -/
theorem index_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_2.index t (1 : Fin 4) = 0 ∧ win0_2.index t (3 : Fin 4) = 0
    ∧ win0_1.index t (0 : Fin 4) = win0_3.index t (0 : Fin 4) ∧ win0_1.index t (1 : Fin 4) = 0
    ∧ win0_1.index t (2 : Fin 4) = win0_3.index t (2 : Fin 4) ∧ win0_1.index t (3 : Fin 4) = 0
    ∧ win0_3.index t (1 : Fin 4) = 0 ∧ win0_3.index t (3 : Fin 4) = 0 :=
  (by decide +kernel : ∀ t : Fin grid0.N, _)

/-- Every image and every band of rows is some point's, for the first result -/
theorem index_onto2 : ∀ (b : Fin 32) (q : Fin 4), ∃ t : Fin cfg0.N, win0_2.index t = ![b.val, 0, q.val, 0] :=
  (by decide +kernel : ∀ (b : Fin 32) (q : Fin 4), ∃ t : Fin grid0.N, win0_2.index t = ![b.val, 0, q.val, 0])

/-- and for the second. -/
theorem index_onto3 : ∀ (b : Fin 32) (q : Fin 4), ∃ t : Fin cfg0.N, win0_3.index t = ![b.val, 0, q.val, 0] :=
  (by decide +kernel : ∀ (b : Fin 32) (q : Fin 4), ∃ t : Fin grid0.N, win0_3.index t = ![b.val, 0, q.val, 0])

/-! ## What each point writes back -/

/-- Point `t` writes back block `t` of the first mask copied into three channels. -/
theorem flushed2_eq (c : Dev nD) (t : Fin cfg0.N) :
    (dats m 0 c).flushed 2 t
      = ((cfg0.win 2).blk t).view.read (Elt F) (spread (V m c main_v12 : S32x1x1024x1024.Idx → Elt F .f32)) := by
  rw [flushed2]
  funext y
  show out0_2 (iblk m c 0 t) (iblk m c 1 t) y = V m c main_v12 (under (((cfg0.win 2).blk t).view.emb y))
  refine (block2 _ _ y).trans ?_
  show V m c main_v12 (((cfg0.win 0).blk t).view.emb (ix2_0 y)) = _
  obtain ⟨e0, e1, e2, e3, e4, e5, -, -, -, -, -, -⟩ := index_facts t
  have hy0 : (y 0).val < 1 := (y 0).isLt
  refine congrArg (V m c main_v12) (funext fun a => Fin.ext ?_)
  match a with
  | ⟨0, _⟩ => show win0_0.index t (0 : Fin 4) * 1 + 1 * 0 = win0_2.index t (0 : Fin 4) * 1 + 1 * (y 0).val; omega
  | ⟨1, _⟩ => show win0_0.index t (1 : Fin 4) * 1 + 1 * 0 = 0; omega
  | ⟨2, _⟩ => show win0_0.index t (2 : Fin 4) * 256 + 1 * (y 2).val = win0_2.index t (2 : Fin 4) * 256 + 1 * (y 2).val; omega
  | ⟨3, _⟩ => show win0_0.index t (3 : Fin 4) * 1024 + 1 * (y 3).val = win0_2.index t (3 : Fin 4) * 1024 + 1 * (y 3).val; omega

/-- Point `t` writes back block `t` of the second mask copied into three channels. -/
theorem flushed3_eq (c : Dev nD) (t : Fin cfg0.N) :
    (dats m 0 c).flushed 3 t
      = ((cfg0.win 3).blk t).view.read (Elt F) (spread (V m c main_v15 : S32x1x1024x1024.Idx → Elt F .f32)) := by
  rw [flushed3]
  funext y
  show out0_3 (iblk m c 0 t) (iblk m c 1 t) y = V m c main_v15 (under (((cfg0.win 3).blk t).view.emb y))
  refine (block3 _ _ y).trans ?_
  show V m c main_v15 (((cfg0.win 1).blk t).view.emb (ix3_0 y)) = _
  obtain ⟨-, -, -, -, -, -, e0, e1, e2, e3, e4, e5⟩ := index_facts t
  have hy0 : (y 0).val < 1 := (y 0).isLt
  refine congrArg (V m c main_v15) (funext fun a => Fin.ext ?_)
  match a with
  | ⟨0, _⟩ => show win0_1.index t (0 : Fin 4) * 1 + 1 * 0 = win0_3.index t (0 : Fin 4) * 1 + 1 * (y 0).val; omega
  | ⟨1, _⟩ => show win0_1.index t (1 : Fin 4) * 1 + 1 * 0 = 0; omega
  | ⟨2, _⟩ => show win0_1.index t (2 : Fin 4) * 256 + 1 * (y 2).val = win0_3.index t (2 : Fin 4) * 256 + 1 * (y 2).val; omega
  | ⟨3, _⟩ => show win0_1.index t (3 : Fin 4) * 1024 + 1 * (y 3).val = win0_3.index t (3 : Fin 4) * 1024 + 1 * (y 3).val; omega

/-! ## The blocks tile the results -/

/-- An index of the first result is in point `t`'s block iff each coordinate is in the block's range on its axis. -/
theorem mem_blk2 (t : Fin cfg0.N) (i : S32x3x1024x1024.Idx) :
    i ∈ ((cfg0.win 2).blk t).view.set ↔ ∀ a : Fin 4, win0_2.index t a * S1x3x256x1024.size a ≤ (i a).val ∧ (i a).val < win0_2.index t a * S1x3x256x1024.size a + S1x3x256x1024.size a := by
  show i ∈ ((View.whole main_v16_0).slice (win0_2.rect t)).set ↔ _
  rw [View.set_slice_whole, Rect.mem_set_unit]
  exact Iff.rfl

/-- The same for the second result. -/
theorem mem_blk3 (t : Fin cfg0.N) (i : S32x3x1024x1024.Idx) :
    i ∈ ((cfg0.win 3).blk t).view.set ↔ ∀ a : Fin 4, win0_3.index t a * S1x3x256x1024.size a ≤ (i a).val ∧ (i a).val < win0_3.index t a * S1x3x256x1024.size a + S1x3x256x1024.size a := by
  show i ∈ ((View.whole main_v16_1).slice (win0_3.rect t)).set ↔ _
  rw [View.set_slice_whole, Rect.mem_set_unit]
  exact Iff.rfl

/-- Every index of the first result is in the block of the point of its image and of its band `row / 256`. -/
theorem cover2 (i : S32x3x1024x1024.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 1024 := (i 2).isLt
  have hi3 : (i 3).val < 1024 := (i 3).isLt
  obtain ⟨t, ht⟩ := index_onto2 ⟨(i 0).val, hi0⟩ ⟨(i 2).val / 256, by omega⟩
  have q0 : win0_2.index t (0 : Fin 4) = (i 0).val := congrFun ht 0
  have q1 : win0_2.index t (1 : Fin 4) = 0 := congrFun ht 1
  have q2 : win0_2.index t (2 : Fin 4) = (i 2).val / 256 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 256 ≤ (i 2).val ∧ (i 2).val < win0_2.index t (2 : Fin 4) * 256 + 256; omega
  | ⟨3, _⟩ => show win0_2.index t (3 : Fin 4) * 1024 ≤ (i 3).val ∧ (i 3).val < win0_2.index t (3 : Fin 4) * 1024 + 1024; omega

/-- The same for the second result. -/
theorem cover3 (i : S32x3x1024x1024.Idx) :
    ∃ t : Fin cfg0.N, (cfg0.win 3).flush t = true ∧ i ∈ ((cfg0.win 3).blk t).view.set := by
  have hi0 : (i 0).val < 32 := (i 0).isLt
  have hi1 : (i 1).val < 3 := (i 1).isLt
  have hi2 : (i 2).val < 1024 := (i 2).isLt
  have hi3 : (i 3).val < 1024 := (i 3).isLt
  obtain ⟨t, ht⟩ := index_onto3 ⟨(i 0).val, hi0⟩ ⟨(i 2).val / 256, by omega⟩
  have q0 : win0_3.index t (0 : Fin 4) = (i 0).val := congrFun ht 0
  have q1 : win0_3.index t (1 : Fin 4) = 0 := congrFun ht 1
  have q2 : win0_3.index t (2 : Fin 4) = (i 2).val / 256 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 256 ≤ (i 2).val ∧ (i 2).val < win0_3.index t (2 : Fin 4) * 256 + 256; omega
  | ⟨3, _⟩ => show win0_3.index t (3 : Fin 4) * 1024 ≤ (i 3).val ∧ (i 3).val < win0_3.index t (3 : Fin 4) * 1024 + 1024; omega

/-- After the run the first result is the first mask in every channel. -/
theorem final2 (c : Dev nD) :
    (dats m 0 c).arrAt 2 cfg0.N = spread (V m c main_v12 : S32x1x1024x1024.Idx → Elt F .f32) :=
  (dats m 0 c).arrAt_eq_of_cover 2 (spread (V m c main_v12 : S32x1x1024x1024.Idx → Elt F .f32))
    (fun t _ => flushed2_eq m c t) cover2

/-- After the run the second result is the second mask in every channel. -/
theorem final3 (c : Dev nD) :
    (dats m 0 c).arrAt 3 cfg0.N = spread (V m c main_v15 : S32x1x1024x1024.Idx → Elt F .f32) :=
  (dats m 0 c).arrAt_eq_of_cover 3 (spread (V m c main_v15 : S32x1x1024x1024.Idx → Elt F .f32))
    (fun t _ => flushed3_eq m c t) cover3

/-! ## The masks the region finds, and the run -/

/-- The program's pattern table is the sixteen entries. -/
theorem table_eq : (fun i => lit0 (S4x2x2.rowMajor i) : (⟨S4x2x2, .i32⟩ : BufTy).Contents (Elt F)) = table (F := F) :=
  funext fun i => congrFun (eq_entries lit0 ⟨rfl, rfl, rfl, rfl, rfl, rfl, rfl, rfl, rfl, rfl, rfl, rfl, rfl, rfl, rfl, rfl⟩) _

/-- The host operations' own term for a single-channel mask is the shared chain. -/
theorem chain_eq (n : BitVec 32) (a : (⟨S32x1x512x512, .i32⟩ : BufTy).Contents (Elt F)) :
    (uitofp .f32
      (cmpi .eq
        (shapeCast S32x1x1024x1024
          (transpose S32x512x2x512x2 [0, 1, 3, 2, 4]
            (Host.gather gather_S4x2x2_S32x512x512x1_S32x512x512x2x2_34_0_n_n_0_3_122 (fun i => lit0 (S4x2x2.rowMajor i))
              (broadcastInDim S32x512x512x1 ![0, 1, 2] bcast_S32x512x512_S32x512x512x1_0_1_2
                (select
                  (cmpi .slt (shapeCast S32x512x512 a shapeCasts_S32x1x512x512_S32x512x512) (broadcastInDim S32x512x512 ![] bcast_S_S32x512x512 (constantI S_ 32 0#32)))
                  (addi (shapeCast S32x512x512 a shapeCasts_S32x1x512x512_S32x512x512) (broadcastInDim S32x512x512 ![] bcast_S_S32x512x512 (constantI S_ 32 4#32)))
                  (shapeCast S32x512x512 a shapeCasts_S32x1x512x512_S32x512x512))))
            transposes_S32x512x512x2x2_S32x512x2x512x2_0_1_3_2_4)
          shapeCasts_S32x512x2x512x2_S32x1x1024x1024)
        (broadcastInDim S32x1x1024x1024 ![] bcast_S_S32x1x1024x1024 (constantI S_ 32 n)))
      : (⟨S32x1x1024x1024, .f32⟩ : BufTy).Contents (Elt F))
    = pattern layout (table (F := F)) n a :=
  (show _ = pattern layout (fun i => lit0 (S4x2x2.rowMajor i)) n a from rfl).trans
    (congrArg (fun tb => pattern layout tb n a) table_eq)

/-- The first mask as the region finds it: the chain at 1 of the code map as launched. -/
theorem entry12 (c : Dev nD) : (V m c main_v12 : S32x1x1024x1024.Idx → Elt F .f32)
    = pattern layout (table (F := F)) 1#32 (m ((c : Thread nD τ).loc main_arg1)) := by
  dsimp only [V, hostOps0]
  after_results
  exact chain_eq 1#32 _

/-- The second mask as the region finds it: the chain at 2. -/
theorem entry15 (c : Dev nD) : (V m c main_v15 : S32x1x1024x1024.Idx → Elt F .f32)
    = pattern layout (table (F := F)) 2#32 (m ((c : Thread nD τ).loc main_arg1)) := by
  dsimp only [V, hostOps0]
  after_results
  exact chain_eq 2#32 _

/-- The run, read: each result is its mask of the launched code map in every channel; the arguments are unchanged. -/
theorem run : θ_run defs (onTc (τ := τ) (main (F := F))) ⟨m, fun _ => 0, ρ⟩ fun r => ∀ c : Dev nD,
      r.2.mem ((c : Thread nD τ).loc main_v16_0) = spread (pattern layout (table (F := F)) 1#32 (m ((c : Thread nD τ).loc main_arg1)))
      ∧ r.2.mem ((c : Thread nD τ).loc main_v16_1) = spread (pattern layout (table (F := F)) 2#32 (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((final2 m c).trans (congrArg spread (entry12 m c))),
       (h c).2.1.trans ((final3 m c).trans (congrArg spread (entry15 m c))),
       (h c).2.2.1, (h c).2.2.2⟩)
    (run_blocks m ρ)

end Cert.KernelIdeal.Channels

end
-- ==== Proof.ReferenceRun.lean ====
/-
  The reference program is a straight line of host operations: it computes the picture of 2 × 2 patterns from
  the code map by the shared chain (`pattern`), once compared with 1 and once with 2, and broadcasts each
  single-channel mask along the channel axis to three channels. Its run, read back: every weakly fair
  execution ends with the first result at the first mask in every channel, the second result at the second
  mask in every channel (`spread`), and the arguments as they were.
-/
import proofs.«169640_j695784702485_1_alg».proof.Proof.Gen.ReferenceIdeal
import proofs.«169640_j695784702485_1_alg».proof.Proof.Pattern
import Idealize.ShloMosaic.Lib.StableHlo.Run

noncomputable section

namespace Cert.ReferenceIdeal.HostRun

open Cert.ReferenceIdeal Cert.ReferenceIdeal.Gen Cert.Masks
open Idealize.ShloMosaic Idealize.ShloMosaic.TcCoe Idealize.SL.Sem Idealize.ShloMosaic.StableHlo

variable {F : FTy → Type} [FloatOps F]

/-- The program's 23 operations, in order. -/
abbrev ops : List (HloOp τ sig (Elt F)) :=
  [ nullary main_c (fun i => lit0 (S4x2x2.rowMajor i)),
    reshape main_arg1 main_v0 rfl shapeCasts_S32x1x512x512_S32x512x512,
    nullary main_c_0 (constantI S_ 32 0#32),
    unary main_c_0 main_v1 (broadcastInDim S32x512x512 ![] bcast_S_S32x512x512 : (⟨S_, .i32⟩ : BufTy).Contents (Elt F) → (⟨S32x512x512, .i32⟩ : BufTy).Contents (Elt F)),
    binary main_v0 main_v1 main_v2 (cmpi .slt : (⟨S32x512x512, .i32⟩ : BufTy).Contents (Elt F) → (⟨S32x512x512, .i32⟩ : BufTy).Contents (Elt F) → (⟨S32x512x512, .i1⟩ : BufTy).Contents (Elt F)),
    nullary main_c_1 (constantI S_ 32 4#32),
    unary main_c_1 main_v3 (broadcastInDim S32x512x512 ![] bcast_S_S32x512x512 : (⟨S_, .i32⟩ : BufTy).Contents (Elt F) → (⟨S32x512x512, .i32⟩ : BufTy).Contents (Elt F)),
    binary main_v0 main_v3 main_v4 (addi : (⟨S32x512x512, .i32⟩ : BufTy).Contents (Elt F) → (⟨S32x512x512, .i32⟩ : BufTy).Contents (Elt F) → (⟨S32x512x512, .i32⟩ : BufTy).Contents (Elt F)),
    ternary main_v2 main_v4 main_v0 main_v5 (select : (⟨S32x512x512, .i1⟩ : BufTy).Contents (Elt F) → (⟨S32x512x512, .i32⟩ : BufTy).Contents (Elt F) → (⟨S32x512x512, .i32⟩ : BufTy).Contents (Elt F) → (⟨S32x512x512, .i32⟩ : BufTy).Contents (Elt F)),
    unary main_v5 main_v6 (broadcastInDim S32x512x512x1 ![0, 1, 2] bcast_S32x512x512_S32x512x512x1_0_1_2 : (⟨S32x512x512, .i32⟩ : BufTy).Contents (Elt F) → (⟨S32x512x512x1, .i32⟩ : BufTy).Contents (Elt F)),
    binary main_c main_v6 main_v7 ((fun x i => Host.gather gather_S4x2x2_S32x512x512x1_S32x512x512x2x2_34_0_n_n_0_3_122 x i) : (⟨S4x2x2, .i32⟩ : BufTy).Contents (Elt F) → (⟨S32x512x512x1, .i32⟩ : BufTy).Contents (Elt F) → (⟨S32x512x512x2x2, .i32⟩ : BufTy).Contents (Elt F)),
    unary main_v7 main_v8 ((transpose S32x512x2x512x2 [0, 1, 3, 2, 4] · transposes_S32x512x512x2x2_S32x512x2x512x2_0_1_3_2_4) : (⟨S32x512x512x2x2, .i32⟩ : BufTy).Contents (Elt F) → (⟨S32x512x2x512x2, .i32⟩ : BufTy).Contents (Elt F)),
    reshape main_v8 main_v9 rfl shapeCasts_S32x512x2x512x2_S32x1x1024x1024,
    nullary main_c_2 (constantI S_ 32 1#32),
    unary main_c_2 main_v10 (broadcastInDim S32x1x1024x1024 ![] bcast_S_S32x1x1024x1024 : (⟨S_, .i32⟩ : BufTy).Contents (Elt F) → (⟨S32x1x1024x1024, .i32⟩ : BufTy).Contents (Elt F)),
    binary main_v9 main_v10 main_v11 (cmpi .eq : (⟨S32x1x1024x1024, .i32⟩ : BufTy).Contents (Elt F) → (⟨S32x1x1024x1024, .i32⟩ : BufTy).Contents (Elt F) → (⟨S32x1x1024x1024, .i1⟩ : BufTy).Contents (Elt F)),
    unary main_v11 main_v12 (uitofp .f32 : (⟨S32x1x1024x1024, .i1⟩ : BufTy).Contents (Elt F) → (⟨S32x1x1024x1024, .f32⟩ : BufTy).Contents (Elt F)),
    unary main_v12 main_v13 (broadcastInDim S32x3x1024x1024 ![0, 1, 2, 3] bcast_S32x1x1024x1024_S32x3x1024x1024_0_1_2_3 : (⟨S32x1x1024x1024, .f32⟩ : BufTy).Contents (Elt F) → (⟨S32x3x1024x1024, .f32⟩ : BufTy).Contents (Elt F)),
    nullary main_c_3 (constantI S_ 32 2#32),
    unary main_c_3 main_v14 (broadcastInDim S32x1x1024x1024 ![] bcast_S_S32x1x1024x1024 : (⟨S_, .i32⟩ : BufTy).Contents (Elt F) → (⟨S32x1x1024x1024, .i32⟩ : BufTy).Contents (Elt F)),
    binary main_v9 main_v14 main_v15 (cmpi .eq : (⟨S32x1x1024x1024, .i32⟩ : BufTy).Contents (Elt F) → (⟨S32x1x1024x1024, .i32⟩ : BufTy).Contents (Elt F) → (⟨S32x1x1024x1024, .i1⟩ : BufTy).Contents (Elt F)),
    unary main_v15 main_v16 (uitofp .f32 : (⟨S32x1x1024x1024, .i1⟩ : BufTy).Contents (Elt F) → (⟨S32x1x1024x1024, .f32⟩ : BufTy).Contents (Elt F)),
    unary main_v16 main_v17 (broadcastInDim S32x3x1024x1024 ![0, 1, 2, 3] bcast_S32x1x1024x1024_S32x3x1024x1024_0_1_2_3 : (⟨S32x1x1024x1024, .f32⟩ : BufTy).Contents (Elt F) → (⟨S32x3x1024x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., unary_bufs_sub .., unary_bufs_sub ..,
    nullary_bufs_sub .., unary_bufs_sub .., binary_bufs_sub .., unary_bufs_sub .., unary_bufs_sub ..⟩

/-- The program's pattern table is the sixteen entries. -/
theorem table_eq : (fun i => lit0 (S4x2x2.rowMajor i) : (⟨S4x2x2, .i32⟩ : BufTy).Contents (Elt F)) = table (F := F) :=
  funext fun i => congrFun (eq_entries lit0 ⟨rfl, rfl, rfl, rfl, rfl, rfl, rfl, rfl, rfl, rfl, rfl, rfl, rfl, rfl, rfl, rfl⟩) _

/-- The run's own term for a single-channel mask is the shared chain. -/
theorem chain_eq (n : BitVec 32) (a : (⟨S32x1x512x512, .i32⟩ : BufTy).Contents (Elt F)) :
    (uitofp .f32
      (cmpi .eq
        (shapeCast S32x1x1024x1024
          (transpose S32x512x2x512x2 [0, 1, 3, 2, 4]
            (Host.gather gather_S4x2x2_S32x512x512x1_S32x512x512x2x2_34_0_n_n_0_3_122 (fun i => lit0 (S4x2x2.rowMajor i))
              (broadcastInDim S32x512x512x1 ![0, 1, 2] bcast_S32x512x512_S32x512x512x1_0_1_2
                (select
                  (cmpi .slt (shapeCast S32x512x512 a shapeCasts_S32x1x512x512_S32x512x512) (broadcastInDim S32x512x512 ![] bcast_S_S32x512x512 (constantI S_ 32 0#32)))
                  (addi (shapeCast S32x512x512 a shapeCasts_S32x1x512x512_S32x512x512) (broadcastInDim S32x512x512 ![] bcast_S_S32x512x512 (constantI S_ 32 4#32)))
                  (shapeCast S32x512x512 a shapeCasts_S32x1x512x512_S32x512x512))))
            transposes_S32x512x512x2x2_S32x512x2x512x2_0_1_3_2_4)
          shapeCasts_S32x512x2x512x2_S32x1x1024x1024)
        (broadcastInDim S32x1x1024x1024 ![] bcast_S_S32x1x1024x1024 (constantI S_ 32 n)))
      : (⟨S32x1x1024x1024, .f32⟩ : BufTy).Contents (Elt F))
    = pattern layout (table (F := F)) n a :=
  (show _ = pattern layout (fun i => lit0 (S4x2x2.rowMajor i)) n a from rfl).trans
    (congrArg (fun tb => pattern layout tb n a) table_eq)

/-- On every device, from any memory with zero counters: every weakly fair execution of the program terminates
    with each result at its mask of the launched code map in every channel, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = spread (pattern layout (table (F := F)) 1#32 (m ((c.tc : Thread nD τ).loc main_arg1)))
      ∧ r.2.mem ((c.tc : Thread nD τ).loc main_v17) = spread (pattern layout (table (F := F)) 2#32 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v13).trans (by
          after_results
          exact (broadcast_eq_spread _ _).trans (congrArg spread (chain_eq 1#32 _))),
       (h c main_v17).trans (by
          after_results
          exact (broadcast_eq_spread _ _).trans (congrArg spread (chain_eq 2#32 _))),
       (h c main_arg0).trans (by after_results),
       (h c main_arg1).trans (by after_results)⟩)
    (run_seq scopedRefs_eq scopedSems_eq defs main (fun _ => ops) main_eq (fun _ => ops_sub) m ρ)

end Cert.ReferenceIdeal.HostRun

end
-- ==== Proof.lean ====
/-
  The proof of `Cert.Claim`: a kernel that expands a half-resolution map of category codes into two
  full-resolution three-channel masks, against the same expansion written with array operations only.

  Both programs turn the code map into a picture of 2 × 2 patterns by one and the same chain of integer
  operations and compare the picture with 1 and with 2, which gives two single-channel masks of zeros and
  ones (Proof/Pattern.lean names the chain `pattern` and never opens it). The kernel then copies each mask
  into three channels band by band — one grid point per image and per band of 256 rows, each storing its
  band of the mask into the three channels of the same band of the result — while the reference broadcasts
  the whole mask along the channel axis. Index by index both say: result `[b, ch, r, s]` is the mask at
  `[b, 0, r, s]` (`spread`). Proof/KernelValue.lean reads the kernel's run that way (each point's block, the
  bands tiling the result, the masks the region finds), Proof/ReferenceRun.lean the reference's. The equality
  uses no arithmetic on the extended reals at all — the same values are moved, never combined — so the
  precondition is not opened. The two idealized programs are the printed programs' own text (no rewrite was
  applied), so `preserves` has nothing to state.
-/
import proofs.«169640_j695784702485_1_alg».proof.Defs
import proofs.«169640_j695784702485_1_alg».proof.Proof.Gen.Kernel
import proofs.«169640_j695784702485_1_alg».proof.Proof.Gen.Kernel.Skeleton
import proofs.«169640_j695784702485_1_alg».proof.Proof.Gen.Kernel.Launch
import proofs.«169640_j695784702485_1_alg».proof.Proof.Gen.Kernel.Points
import proofs.«169640_j695784702485_1_alg».proof.Proof.Gen.Kernel.Frame
import proofs.«169640_j695784702485_1_alg».proof.Proof.Gen.KernelIdeal
import proofs.«169640_j695784702485_1_alg».proof.Proof.Gen.KernelIdeal.Skeleton
import proofs.«169640_j695784702485_1_alg».proof.Proof.Gen.KernelIdeal.Launch
import proofs.«169640_j695784702485_1_alg».proof.Proof.Gen.KernelIdeal.Points
import proofs.«169640_j695784702485_1_alg».proof.Proof.Gen.KernelIdeal.Frame
import proofs.«169640_j695784702485_1_alg».proof.Proof.Gen.KernelIdeal.Value
import proofs.«169640_j695784702485_1_alg».proof.Proof.Gen.ReferenceIdeal
import proofs.«169640_j695784702485_1_alg».proof.Proof.Gen.Pre_finite_inputs
import proofs.«169640_j695784702485_1_alg».proof.Proof.Pattern
import proofs.«169640_j695784702485_1_alg».proof.Proof.KernelValue
import proofs.«169640_j695784702485_1_alg».proof.Proof.ReferenceRun
import Idealize.ShloMosaic.Adequacy
import Idealize.ShloMosaic.Init

noncomputable section

namespace Cert.Proof

open Idealize.ShloMosaic Idealize.ShloMosaic.TcCoe Idealize.SL.Sem Cert.Masks

/-- The printed kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.HostRun.run (F := Ideal) m ρ)

/-- No operation of the kernel was rewritten for the reading over the extended reals. -/
theorem preserves : Cert.preserves_Kernel_KernelIdeal := trivial

/-- From memories that agree on the arguments both programs end with each result at its mask of the code map in
    every channel: the kernel's run and the reference's run state the same arrays of the same code map. -/
theorem algebraic : Cert.algebraic_KernelIdeal_ReferenceIdeal := by
  intro m ρ m' ρ' _ hagree
  refine ⟨fun c => spread (pattern layout (table (F := Ideal)) 1#32 (m ((c.tc : Thread Cert.KernelIdeal.nD Cert.KernelIdeal.τ).loc Cert.KernelIdeal.main_arg1))),
    fun c => spread (pattern layout (table (F := Ideal)) 2#32 (m ((c.tc : Thread Cert.KernelIdeal.nD Cert.KernelIdeal.τ).loc Cert.KernelIdeal.main_arg1))),
    Cert.KernelIdeal.Channels.run (F := Ideal) m ρ, ?_⟩
  refine (θ_run Cert.ReferenceIdeal.defs _ _).mono (fun _ h c => ?_) (Cert.ReferenceIdeal.HostRun.run (F := Ideal) m' ρ')
  obtain ⟨h1, h2, h3, h4⟩ := h c
  refine ⟨h1.trans ?_, h2.trans ?_, h3, h4⟩
  · rw [(hagree c).2]
  · rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
